-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S64x1 .f32) (main_arg9 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x1 .f32) (main_arg9 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S10000x64 : Shape := ⟨2, ![10000, 64]⟩
abbrev S1x1 : Shape := ⟨2, ![1, 1]⟩

abbrev nBuf : Space → Nat
  | .hbm => 77
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S1x1600000, .i32⟩
  | .hbm, ⟨42, _⟩ => ⟨S1600000, .i32⟩
  | .hbm, ⟨43, _⟩ => ⟨S1x1600000, .i32⟩
  | .hbm, ⟨44, _⟩ => ⟨S1600000, .i32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S_, .f32⟩
  | .hbm, ⟨59, _⟩ => ⟨S1600000, .f32⟩
  | .hbm, ⟨60, _⟩ => ⟨S_, .f32⟩
  | .hbm, ⟨61, _⟩ => ⟨S100000, .f32⟩
  | .hbm, ⟨62, _⟩ => ⟨S1600000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x64, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x1, .f32⟩
  | .hbm, ⟨73, _⟩ => ⟨S1x1, .f32⟩
  | .hbm, ⟨74, _⟩ => ⟨S100000x1, .f32⟩
  | .hbm, ⟨75, _⟩ => ⟨S100000x1, .f32⟩
  | .hbm, ⟨76, _⟩ => ⟨S100000, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S10000x64_S64x64_S10000x64_1_0_0_1_n_n_wf : DotDims.WF S10000x64 S64x64 S10000x64 [1] [0] [0] [1] [] []
  dot_S100000x64_S64x1_S100000x1_1_0_0_1_n_n_wf : DotDims.WF S100000x64 S64x1 S100000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

abbrev win0_0 : Pipeline.Window sig grid0 :=
  Pipeline.Window.ofSpec (Memref.whole main_v22) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S1x1 : Shape := ⟨2, ![1, 1]⟩

abbrev nBuf : Space → Nat
  | .hbm => 91
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S1x1600000, .i32⟩
  | .hbm, ⟨49, _⟩ => ⟨S1600000, .i32⟩
  | .hbm, ⟨50, _⟩ => ⟨S1x1600000, .i32⟩
  | .hbm, ⟨51, _⟩ => ⟨S1600000, .i32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S100000x1, .f32⟩
  | .hbm, ⟨87, _⟩ => ⟨S1x1, .f32⟩
  | .hbm, ⟨88, _⟩ => ⟨S100000x1, .f32⟩
  | .hbm, ⟨89, _⟩ => ⟨S100000x1, .f32⟩
  | .hbm, ⟨90, _⟩ => ⟨S100000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_4 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.RunNamed.lean ====
/-
  The kernel program's run with its result named.

  The program is five segments: host operations, the first layer's region, host operations, the second layer's region, and
  the linear head on the host. The buffer contents at each boundary are a fold through the segments from the launch
  memory; the last of them, after the head, holds the program's result. This module states the run with that buffer's
  final contents named as the fold's value there, beside the unchanged arguments: the frame's own argument, with one
  more buffer of the final thread state read against the final memory.
-/
import proofs.«181128_j10685878633295_1_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents there and the arguments as launched. -/
theorem run_named : θ_run defs (onTc (τ := τ) (main (F := F))) ⟨m, fun _ => 0, ρ⟩ (fun r => ∀ c : Dev nD,
      r.2.mem ((c.tc : Thread nD τ).loc main_v54) = W5 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v54 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.RunNamed

end
-- ==== Proof.Stretches.lean ====
/-
  The three stretches of host operations of the kernel program, read as functions.

  Before each layer's region the program computes, on the host, the mean of every node's in-neighbours' features (slice
  the edge list into sources and destinations, wrap negative sources, gather the source rows, add them into the
  destination rows, count the edges per destination, divide by the count or by one) and reshapes the layer's bias to a
  row; after the second region it applies the linear head. Each stretch is a fold over the buffer contents it starts
  from; here the fold is read back at the buffers the next segment uses: the neighbourhood mean as ONE function `agg` of
  the features and the edge list (never opened again: the reference applies the same operations), the bias row, the head
  as ONE function `head`, and every buffer a stretch does not write kept as it was.
-/
import proofs.«181128_j10685878633295_1_alg».proof.Proof.Gen.KernelIdeal.Launch
import Idealize.ShloMosaic.Lib.StableHlo.Run
import Idealize.ShloMosaic.PureOps.Ideal

set_option maxRecDepth 16384

noncomputable section

namespace Cert.KernelIdeal.Stretches

open Cert.KernelIdeal Cert.KernelIdeal.Gen
open Idealize.ShloMosaic Idealize.ShloMosaic.TcCoe Idealize.SL.Sem Idealize.ShloMosaic.StableHlo

/-- The mean over each node's in-neighbours of the rows of `feat` (zero for a node with no in-edge: the sum is zero and
    the divisor is then one), as the host operations compute it from the edge list `e`. -/
def agg (feat : FVec Ideal S100000x64 .f32) (e : IVec S2x1600000 32) : FVec Ideal S100000x64 .f32 :=
  (Host.divf (F := Ideal) (Host.scatterAdd (F := Ideal) scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (Host.gather gather_S100000x64_S1600000x1_S1600000x64_1_0_n_n_0_1_164 feat (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))))) (broadcastInDim S100000x64 ![0, 1] bcast_S100000x1_S100000x64_0_1 (broadcastInDim S100000x1 ![0] bcast_S100000_S100000x1_0 (maximumf (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (broadcastInDim S1600000 ![] bcast_S_S1600000 (constant (F := Ideal) S_ .f32 0x3F800000#32))) (broadcastInDim S100000 ![] bcast_S_S100000 (constant (F := Ideal) S_ .f32 0x3F800000#32))))))

/-- The linear head: one matrix product with the 64 × 1 weight, the bias added, the unit axis dropped. -/
def head (h : FVec Ideal S100000x64 .f32) (Wc : FVec Ideal S64x1 .f32) (bc : FVec Ideal S1 .f32) :
    FVec Ideal S100000 .f32 :=
  shapeCast _ (addf (Host.dotGeneral (F := Ideal) dot_S100000x64_S64x1_S100000x1_1_0_0_1_n_n none h Wc) (broadcastInDim S100000x1 ![0, 1] bcast_S1x1_S100000x1_0_1 (broadcastInDim S1x1 ![1] bcast_S1_S1x1_1 bc))) shapeCasts_S100000x1_S100000

variable (V : Valuation τ sig (Elt Ideal))

/-! ## The first stretch -/

/-- The first region's neighbourhood means are `agg` of the features and the edge list the stretch starts from. -/
theorem first_agg : after (hostOps0 (F := Ideal)) V (Proc.devRef .tc main_v22)
    = agg (V (Proc.devRef .tc main_arg0)) (V (Proc.devRef .tc main_arg1)) := by
  after_results_simp <;> rfl

/-- The first layer's bias as a row. -/
theorem first_bias : after (hostOps0 (F := Ideal)) V (Proc.devRef .tc main_v23)
    = shapeCast S1x64 (V (Proc.devRef .tc main_arg3)) shapeCasts_S64_S1x64 := by
  after_results_simp <;> rfl

theorem first_arg0 : after (hostOps0 (F := Ideal)) V (Proc.devRef .tc main_arg0) = V (Proc.devRef .tc main_arg0) := by after_results_simp
theorem first_arg1 : after (hostOps0 (F := Ideal)) V (Proc.devRef .tc main_arg1) = V (Proc.devRef .tc main_arg1) := by after_results_simp
theorem first_arg2 : after (hostOps0 (F := Ideal)) V (Proc.devRef .tc main_arg2) = V (Proc.devRef .tc main_arg2) := by after_results_simp
theorem first_arg4 : after (hostOps0 (F := Ideal)) V (Proc.devRef .tc main_arg4) = V (Proc.devRef .tc main_arg4) := by after_results_simp
theorem first_arg5 : after (hostOps0 (F := Ideal)) V (Proc.devRef .tc main_arg5) = V (Proc.devRef .tc main_arg5) := by after_results_simp
theorem first_arg6 : after (hostOps0 (F := Ideal)) V (Proc.devRef .tc main_arg6) = V (Proc.devRef .tc main_arg6) := by after_results_simp
theorem first_arg7 : after (hostOps0 (F := Ideal)) V (Proc.devRef .tc main_arg7) = V (Proc.devRef .tc main_arg7) := by after_results_simp
theorem first_arg8 : after (hostOps0 (F := Ideal)) V (Proc.devRef .tc main_arg8) = V (Proc.devRef .tc main_arg8) := by after_results_simp
theorem first_arg9 : after (hostOps0 (F := Ideal)) V (Proc.devRef .tc main_arg9) = V (Proc.devRef .tc main_arg9) := by after_results_simp

/-! ## The second stretch -/

/-- The second region's neighbourhood means are `agg` of the first layer's output and the edge list. -/
theorem second_agg : after (hostOps1 (F := Ideal)) V (Proc.devRef .tc main_v47)
    = agg (V (Proc.devRef .tc main_v24)) (V (Proc.devRef .tc main_arg1)) := by
  after_results_simp <;> rfl

/-- The second layer's bias as a row. -/
theorem second_bias : after (hostOps1 (F := Ideal)) V (Proc.devRef .tc main_v48)
    = shapeCast S1x64 (V (Proc.devRef .tc main_arg6)) shapeCasts_S64_S1x64 := by
  after_results_simp <;> rfl

theorem second_v24 : after (hostOps1 (F := Ideal)) V (Proc.devRef .tc main_v24) = V (Proc.devRef .tc main_v24) := by after_results_simp
theorem second_arg5 : after (hostOps1 (F := Ideal)) V (Proc.devRef .tc main_arg5) = V (Proc.devRef .tc main_arg5) := by after_results_simp
theorem second_arg7 : after (hostOps1 (F := Ideal)) V (Proc.devRef .tc main_arg7) = V (Proc.devRef .tc main_arg7) := by after_results_simp
theorem second_arg8 : after (hostOps1 (F := Ideal)) V (Proc.devRef .tc main_arg8) = V (Proc.devRef .tc main_arg8) := by after_results_simp
theorem second_arg9 : after (hostOps1 (F := Ideal)) V (Proc.devRef .tc main_arg9) = V (Proc.devRef .tc main_arg9) := by after_results_simp

/-! ## The last stretch -/

/-- The program's result is `head` of the second layer's output, the head's weight and its bias. -/
theorem last_head : after (hostOps2 (F := Ideal)) V (Proc.devRef .tc main_v54)
    = head (V (Proc.devRef .tc main_v49)) (V (Proc.devRef .tc main_arg8)) (V (Proc.devRef .tc main_arg9)) := by
  after_results_simp <;> rfl

end Cert.KernelIdeal.Stretches

end
-- ==== Proof.Spec.lean ====
/-
  One layer of the node classifier, as a function on the extended reals, index by index.

  A layer takes the neighbourhood means `a` and the node features `x` (both 100000 × 64), two 64 × 64 weight matrices, and a
  bias of 64 entries, and returns, at node `r` and channel `c`,

      max ( Σ_k a[r,k] · Wl[k,c]  +  Σ_k x[r,k] · Wr[k,c]  +  bias[c] ,  0 ).

  Both programs compute this function twice (the second time on the first layer's output), between the same
  neighbourhood-mean operations and before the same linear head; they differ only in the order in which the three
  summands are added, which addition on the extended reals does not see (it is commutative and associative, infinities
  included).
-/
import Idealize.ShloMosaic.PureOps.Ideal
import Idealize.ShloMosaic.Lib.ValueIdx

noncomputable section

open scoped BigOperators

namespace Cert.Sage

open Idealize.ShloMosaic Idealize.ShloMosaic.ValueIdx

/-- Node features: 100000 nodes, 64 channels. -/
abbrev Nodes : Shape := ⟨2, ![100000, 64]⟩
/-- A weight matrix, 64 × 64. -/
abbrev Sq : Shape := ⟨2, ![64, 64]⟩

/-- The float word `0x00000000` read as an extended real (it is the real number 0; the proofs never need to know). -/
abbrev zeroF : EReal := Ideal.ofBits .f32 0x00000000#32

/-- The layer at node `r`, channel `c`. -/
def layerAt (a x : Nodes.Idx → EReal) (Wl : Sq.Idx → EReal) (bias : Fin 64 → EReal) (Wr : Sq.Idx → EReal)
    (r : Fin 100000) (c : Fin 64) : EReal :=
  max (((∑ k : Fin 64, a (ix2 r k) * Wl (ix2 k c)) + ∑ k : Fin 64, x (ix2 r k) * Wr (ix2 k c)) + bias c) zeroF

/-- The layer as one function of whole arrays. -/
def layer (a x : Nodes.Idx → EReal) (Wl : Sq.Idx → EReal) (bias : Fin 64 → EReal) (Wr : Sq.Idx → EReal) :
    Nodes.Idx → EReal :=
  fun i => layerAt a x Wl bias Wr (i 0) (i 1)

theorem layer_apply (a x : Nodes.Idx → EReal) (Wl : Sq.Idx → EReal) (bias : Fin 64 → EReal) (Wr : Sq.Idx → EReal)
    (r : Fin 100000) (c : Fin 64) : layer a x Wl bias Wr (ix2 r c) = layerAt a x Wl bias Wr r c := rfl

end Cert.Sage

end
-- ==== Proof.Payload.lean ====
/-
  The kernel body's stored value, read at one row and one channel.

  Each of the two regions stores, for its block of 10000 rows, the array

      max ( A·Wl + X·Wr + bias , 0 )

  where `A` and `X` are the block's rows of the neighbourhood means and of the node features, the two products go
  into zero accumulators, the 1 × 64 bias is repeated over the rows, and the changes of number format are the
  identity on the extended reals. Read at row `p` and channel `q` this is

      max ( Σ_k A[p,k] · Wl[k,q]  +  Σ_k X[p,k] · Wr[k,q]  +  bias[0,q] ,  0 ),

  the sums running over the 64 input channels.
-/
import proofs.«181128_j10685878633295_1_alg».proof.Proof.Gen.KernelIdeal.Skeleton
import proofs.«181128_j10685878633295_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- One matrix product into the zero accumulator, read at row `p`, column `q`: the sum over the 64 contracted
    positions `k` of the left operand at `(p, k)` times the right operand at `(k, q)`. The contraction index has one
    axis of extent 64; the sum is re-indexed through that axis' coordinate, and the operands' indices are read
    coordinate by coordinate (the row of the result on the left, the contracted position on both, the column of the
    result on the right). -/
theorem mm_apply {φ₁ φ₂ : FTy} (a : FVec Ideal S10000x64 φ₁) (b : FVec Ideal S64x64 φ₂) (p : Fin 10000) (q : Fin 64) :
    matmul (F := Ideal) dot_S10000x64_S64x64_S10000x64_1_0_0_1_n_n none a b (constant (F := Ideal) S10000x64 .f32 0x00000000#32) (ix2 p q)
      = ∑ k : Fin 64, a (ix2 p k) * b (ix2 k q) := by
  refine (Ideal.matmul_constant_zero_apply dot_S10000x64_S64x64_S10000x64_1_0_0_1_n_n none a b (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ =>
      show (dot_S10000x64_S64x64_S10000x64_1_0_0_1_n_n.lhsIdx (ix2 p q) _ 0).val = p.val
      unfold DotDims.lhsIdx
      rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
      rfl
    | ⟨1, _⟩ => exact (dot_S10000x64_S64x64_S10000x64_1_0_0_1_n_n.lhsIdx_val_of_single rfl (ix2 p q) _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (dot_S10000x64_S64x64_S10000x64_1_0_0_1_n_n.rhsIdx_val_of_single rfl (ix2 p q) _).trans hk
    | ⟨1, _⟩ =>
      show (dot_S10000x64_S64x64_S10000x64_1_0_0_1_n_n.rhsIdx (ix2 p q) _ 1).val = q.val
      unfold DotDims.rhsIdx
      rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
      rfl)
  rw [el, er]

/-- The first region's stored value at row `p`, channel `q`. The casts to the same shape are the identity, the
    narrowing to bf16 is the identity on the extended reals, each product is the sum above, the bias row is read at
    channel `q` whatever the row, and the maximum with the splat of the zero word is the maximum with that word's
    value. -/
theorem pay0_apply (v0 v3 : Vec Ideal S10000x64 .f32) (v5 v7 : Vec Ideal S64x64 .f32) (v9 : Vec Ideal S1x64 .f32) (p : Fin 10000) (q : Fin 64) :
    Gen.k0_pay1 (F := Ideal) v0 v3 v5 v7 v9 (ix2 p q)
      = max (((∑ k : Fin 64, v0 (ix2 p k) * v5 (ix2 k q)) + ∑ k : Fin 64, v3 (ix2 p k) * v7 (ix2 k q)) + v9 (ix2 (0 : Fin 1) q)) Cert.Sage.zeroF := by
  unfold Gen.k0_pay1
  rw [shapeCast_self v0 shapeCasts_S10000x64_S10000x64, shapeCast_self v9 shapeCasts_S1x64_S1x64]
  have e1 := mm_apply (truncf .bf16 v0 bitsLt_bf16_f32) (truncf .bf16 v5 bitsLt_bf16_f32) p q
  have e2 := mm_apply (truncf .bf16 v3 bitsLt_bf16_f32) (truncf .bf16 v7 bitsLt_bf16_f32) p q
  have e3 := broadcastTo_1b_ab_apply v9 broadcasts_S1x64_S10000x64 p q
  exact congrArg₂ max (congrArg₂ (· + ·) (congrArg₂ (· + ·) e1 e2) e3) rfl

/-- The second region's stored value at row `p`, channel `q`: the same function of its own operands (here both
    row blocks pass through a cast to their own shape first). -/
theorem pay1_apply (v0 v3 : Vec Ideal S10000x64 .f32) (v6 v8 : Vec Ideal S64x64 .f32) (v10 : Vec Ideal S1x64 .f32) (p : Fin 10000) (q : Fin 64) :
    Gen.k1_pay1 (F := Ideal) v0 v3 v6 v8 v10 (ix2 p q)
      = max (((∑ k : Fin 64, v0 (ix2 p k) * v6 (ix2 k q)) + ∑ k : Fin 64, v3 (ix2 p k) * v8 (ix2 k q)) + v10 (ix2 (0 : Fin 1) q)) Cert.Sage.zeroF := by
  unfold Gen.k1_pay1
  rw [shapeCast_self v0 shapeCasts_S10000x64_S10000x64, shapeCast_self v3 shapeCasts_S10000x64_S10000x64, shapeCast_self v10 shapeCasts_S1x64_S1x64]
  have e1 := mm_apply (truncf .bf16 v0 bitsLt_bf16_f32) (truncf .bf16 v6 bitsLt_bf16_f32) p q
  have e2 := mm_apply (truncf .bf16 v3 bitsLt_bf16_f32) (truncf .bf16 v8 bitsLt_bf16_f32) p q
  have e3 := broadcastTo_1b_ab_apply v10 broadcasts_S1x64_S10000x64 p q
  exact congrArg₂ max (congrArg₂ (· + ·) (congrArg₂ (· + ·) e1 e2) e3) rfl

end Cert.KernelIdeal.Payload

end
-- ==== Proof.Region0.lean ====
/-
  From the blocks of layer 1's TensorCore region to its whole output array.

  The region runs over ten grid points. At point `t` it reads rows `10000 t … 10000 t + 9999` of the array of neighbourhood
  means and of the array of node features, the two 64 × 64 weight matrices and the 1 × 64 bias row whole, and writes back
  rows `10000 t … 10000 t + 9999` of the 100000 × 64 output. Element `(p, q)` of what it writes is

      max ( Σ_k a[10000 t + p, k] · Wl[k, q]  +  Σ_k x[10000 t + p, k] · Wr[k, q]  +  bias[q] ,  0 ),

  which is `Cert.Sage.layer` of the five arrays at `(10000 t + p, q)`: every point writes its own block of ONE function of
  the arrays as the region finds them. The ten blocks cover the array (row `r` lies in the block of point `r / 10000`),
  so after the region the output array is that function (`final0`), for any contents `V` of the buffers at the
  region's entry.
-/
import proofs.«181128_j10685878633295_1_alg».proof.Proof.Gen.KernelIdeal.Frame
import proofs.«181128_j10685878633295_1_alg».proof.Proof.Payload
import proofs.«181128_j10685878633295_1_alg».proof.Proof.Spec
import Idealize.ShloMosaic.Lib.Pipeline.Value

noncomputable section

open scoped BigOperators

namespace Cert.KernelIdeal.RegionValue
open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-block access, as a constant function. -/
theorem zero_offsets0 : (![0, 0] : Fin 2 → Nat) = fun _ => 0 := funext fun a => by fin_cases a <;> rfl

/-- The printed index maps, decided over the ten grid points: the two row-blocked inputs and the output sit at row
    block `t`, column block 0; the two weight matrices and the bias row are always at block (0, 0). -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the block of neighbourhood means at point `t` is row `10000 t + p` of the array. -/
theorem means_block0 (c : Dev nD) (t : Fin cfg0.N) (p : Fin 10000) (k : Fin 64) (r : Fin 100000)
    (hr : r.val = t.val * 10000 + p.val) :
    (iblk0 V c 0 t : Vec Ideal S10000x64 .f32) (ix2 p k) = (V c main_v22 : S100000x64.Idx → EReal) (ix2 r k) := by
  obtain ⟨e0, e1, -⟩ := index_facts0 t
  unfold iblk0
  rw [View.read_apply]
  show V c main_v22 _ = V c main_v22 _
  congr 1
  funext a
  apply Fin.ext
  match a with
  | ⟨0, _⟩ => show win0_0.index t (0 : Fin 2) * 10000 + 1 * p.val = r.val; omega
  | ⟨1, _⟩ => show win0_0.index t (1 : Fin 2) * 64 + 1 * k.val = k.val; omega

/-- Row `p` of the block of node features at point `t` is row `10000 t + p` of the array. -/
theorem feats_block0 (c : Dev nD) (t : Fin cfg0.N) (p : Fin 10000) (k : Fin 64) (r : Fin 100000)
    (hr : r.val = t.val * 10000 + p.val) :
    (iblk0 V c 1 t : Vec Ideal S10000x64 .f32) (ix2 p k) = (V c main_arg0 : S100000x64.Idx → EReal) (ix2 r k) := by
  obtain ⟨-, -, e0, e1, -⟩ := index_facts0 t
  unfold iblk0
  rw [View.read_apply]
  show V c main_arg0 _ = V c main_arg0 _
  congr 1
  funext a
  apply Fin.ext
  match a with
  | ⟨0, _⟩ => show win0_1.index t (0 : Fin 2) * 10000 + 1 * p.val = r.val; omega
  | ⟨1, _⟩ => show win0_1.index t (1 : Fin 2) * 64 + 1 * k.val = k.val; omega

/-- The block of the first weight matrix is the whole matrix, at every point. -/
theorem wl_block0 (c : Dev nD) (t : Fin cfg0.N) :
    (iblk0 V c 2 t : Vec Ideal S64x64 .f32) = (V c main_arg2 : S64x64.Idx → EReal) := by
  obtain ⟨-, -, -, -, e0, e1, -⟩ := index_facts0 t
  funext y
  unfold iblk0
  rw [View.read_apply]
  show V c main_arg2 _ = V c main_arg2 _
  congr 1
  funext a
  apply Fin.ext
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- The block of the bias row is the whole row, at every point. -/
theorem bias_block0 (c : Dev nD) (t : Fin cfg0.N) :
    (iblk0 V c 3 t : Vec Ideal S1x64 .f32) = (V c main_v23 : S1x64.Idx → EReal) := by
  obtain ⟨-, -, -, -, -, -, e0, e1, -⟩ := index_facts0 t
  funext y
  unfold iblk0
  rw [View.read_apply]
  show V c main_v23 _ = V c main_v23 _
  congr 1
  funext a
  apply Fin.ext
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- The block of the second weight matrix is the whole matrix, at every point. -/
theorem wr_block0 (c : Dev nD) (t : Fin cfg0.N) :
    (iblk0 V c 4 t : Vec Ideal S64x64 .f32) = (V c main_arg4 : S64x64.Idx → EReal) := by
  obtain ⟨-, -, -, -, -, -, -, -, e0, e1, -⟩ := index_facts0 t
  funext y
  unfold iblk0
  rw [View.read_apply]
  show V c main_arg4 _ = V c main_arg4 _
  congr 1
  funext a
  apply Fin.ext
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- Element `(p, q)` of the output block at point `t` is element `(10000 t + p, q)` of the output array. -/
theorem out_block0 (t : Fin cfg0.N) (p : Fin 10000) (q : Fin 64) (r : Fin 100000)
    (hr : r.val = t.val * 10000 + p.val) :
    ((cfg0.win 5).blk t).view.emb (ix2 p q : S10000x64.Idx) = (ix2 r q : S100000x64.Idx) := by
  obtain ⟨-, -, -, -, -, -, -, -, -, -, e0, e1⟩ := index_facts0 t
  funext a
  apply Fin.ext
  match a with
  | ⟨0, _⟩ => show win0_5.index t (0 : Fin 2) * 10000 + 1 * p.val = r.val; omega
  | ⟨1, _⟩ => show win0_5.index t (1 : Fin 2) * 64 + 1 * q.val = q.val; omega

/-- One element of the body's result, over arbitrary blocks: when row `p` of the two row blocks is row `r` of the two
    arrays and the other three blocks are the whole weight matrices and bias row, element `(p, q)` of the payload is
    the layer at node `r`, channel `q`. -/
theorem point0 (x0 x1 : Vec Ideal S10000x64 .f32) (x2 x4 : Vec Ideal S64x64 .f32) (x3 : Vec Ideal S1x64 .f32)
    (a x : S100000x64.Idx → EReal) (Wl Wr : S64x64.Idx → EReal) (b : S1x64.Idx → EReal)
    (p : Fin 10000) (q : Fin 64) (r : Fin 100000)
    (h0 : ∀ k : Fin 64, x0 (ix2 p k) = a (ix2 r k)) (h1 : ∀ k : Fin 64, x1 (ix2 p k) = x (ix2 r k))
    (h2 : x2 = Wl) (h3 : x3 = b) (h4 : x4 = Wr) :
    Gen.k0_pay1 (F := Ideal) x0 x1 x2 x4 x3 (ix2 p q)
      = Cert.Sage.layer a x Wl (fun k => b (ix2 (0 : Fin 1) k)) Wr (ix2 r q) := by
  rw [Payload.pay0_apply, Cert.Sage.layer_apply]
  unfold Cert.Sage.layerAt
  subst h2 h3 h4
  have s0 : (∑ k : Fin 64, x0 (ix2 p k) * x2 (ix2 k q)) = ∑ k : Fin 64, a (ix2 r k) * x2 (ix2 k q) :=
    Finset.sum_congr rfl fun k _ => by rw [h0 k]
  have s1 : (∑ k : Fin 64, x1 (ix2 p k) * x4 (ix2 k q)) = ∑ k : Fin 64, x (ix2 r k) * x4 (ix2 k q) :=
    Finset.sum_congr rfl fun k _ => by rw [h1 k]
  rw [s0, s1]

/-- WHAT POINT `t` WRITES BACK is block `t` of the layer of the five arrays as the region finds them. -/
theorem flushed_eq0 (c : Dev nD) (t : Fin cfg0.N) :
    (Gen.dat0 (F := Ideal) V c).flushed 5 t = ((cfg0.win 5).blk t).view.read (Elt Ideal)
      (Cert.Sage.layer (V c main_v22) (V c main_arg0) (V c main_arg2) (fun k => V c main_v23 (ix2 (0 : Fin 1) k)) (V c main_arg4)) := by
  show (cfg0.win 5).cut (grid0.coords t) ((dat0 V c).after 5 t) = _
  rw [after0_5]
  unfold out0_5
  rw [View.canon_unit_zero zero_offsets0]
  simp only [View.ld_unit_zero (S := S10000x64) zero_offsets0, View.ld_unit_zero (S := S64x64) zero_offsets0,
    View.ld_unit_zero (S := S1x64) zero_offsets0]
  funext j
  obtain ⟨p, q, rfl⟩ : ∃ (p : Fin 10000) (q : Fin 64), j = ix2 p q := ⟨j 0, j 1, eq_ix2 j⟩
  have hN : grid0.N = 10 := Gen.N_0
  have ht : t.val < 10 := hN ▸ t.isLt
  have hr : (⟨t.val * 10000 + p.val, by have := p.isLt; omega⟩ : Fin 100000).val = t.val * 10000 + p.val := rfl
  show Gen.k0_pay1 (F := Ideal) (iblk0 V c 0 t) (iblk0 V c 1 t) (iblk0 V c 2 t) (iblk0 V c 4 t) (iblk0 V c 3 t) (ix2 p q)
    = Cert.Sage.layer (V c main_v22) (V c main_arg0) (V c main_arg2) (fun k => V c main_v23 (ix2 (0 : Fin 1) k)) (V c main_arg4)
        (((cfg0.win 5).blk t).view.emb (ix2 p q))
  rw [out_block0 t p q _ hr]
  exact point0 _ _ _ _ _ _ _ _ _ _ p q _ (fun k => means_block0 V c t p k _ hr) (fun k => feats_block0 V c t p k _ hr)
    (wl_block0 V c t) (bias_block0 V c t) (wr_block0 V c t)

/-- An index of the output array is in point `t`'s block iff each coordinate is in the block's range on its axis. -/
theorem mem_blk0 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v24).slice (win0_5.rect t)).set ↔ _
  rw [View.set_slice_whole, Rect.mem_set_unit]
  exact Iff.rfl

/-- Every index of the output array lies in the block of the point its row falls in, and every point writes back. -/
theorem cover0 (i : S100000x64.Idx) :
    ∃ t : Fin cfg0.N, (cfg0.win 5).flush t = true ∧ i ∈ ((cfg0.win 5).blk t).view.set := by
  have hN : grid0.N = 10 := Gen.N_0
  have hi0 : (i 0).val < 100000 := (i 0).isLt
  have hi1 : (i 1).val < 64 := (i 1).isLt
  have hlt : (i 0).val / 10000 < grid0.N := by rw [hN]; omega
  refine ⟨⟨(i 0).val / 10000, hlt⟩, Gen.flush0_5 _, ?_⟩
  obtain ⟨-, -, -, -, -, -, -, -, -, -, e0, e1⟩ := index_facts0 ⟨(i 0).val / 10000, hlt⟩
  have e0' : win0_5.index ⟨(i 0).val / 10000, hlt⟩ (0 : Fin 2) = (i 0).val / 10000 := e0
  rw [mem_blk0]
  intro a
  match a with
  | ⟨0, _⟩ => show win0_5.index ⟨(i 0).val / 10000, hlt⟩ (0 : Fin 2) * 10000 ≤ (i 0).val ∧ (i 0).val < win0_5.index ⟨(i 0).val / 10000, hlt⟩ (0 : Fin 2) * 10000 + 10000; omega
  | ⟨1, _⟩ => show win0_5.index ⟨(i 0).val / 10000, hlt⟩ (1 : Fin 2) * 64 ≤ (i 1).val ∧ (i 1).val < win0_5.index ⟨(i 0).val / 10000, hlt⟩ (1 : Fin 2) * 64 + 64; omega

/-- THE OUTPUT ARRAY after the region: the layer of the five arrays as the region finds them. -/
theorem final0 (c : Dev nD) :
    (Gen.dat0 (F := Ideal) V c).arrAt 5 cfg0.N
      = Cert.Sage.layer (V c main_v22) (V c main_arg0) (V c main_arg2) (fun k => V c main_v23 (ix2 (0 : Fin 1) k)) (V c main_arg4) :=
  (Gen.dat0 (F := Ideal) V c).arrAt_eq_of_cover 5
    (Cert.Sage.layer (V c main_v22) (V c main_arg0) (V c main_arg2) (fun k => V c main_v23 (ix2 (0 : Fin 1) k)) (V c main_arg4))
    (fun t _ => flushed_eq0 V c t) cover0

end Cert.KernelIdeal.RegionValue

end
-- ==== Proof.Region1.lean ====
/-
  From the blocks of layer 2's TensorCore region to its whole output array.

  The region runs over ten grid points. At point `t` it reads rows `10000 t … 10000 t + 9999` of the array of neighbourhood
  means and of the array of node features, the two 64 × 64 weight matrices and the 1 × 64 bias row whole, and writes back
  rows `10000 t … 10000 t + 9999` of the 100000 × 64 output. Element `(p, q)` of what it writes is

      max ( Σ_k a[10000 t + p, k] · Wl[k, q]  +  Σ_k x[10000 t + p, k] · Wr[k, q]  +  bias[q] ,  0 ),

  which is `Cert.Sage.layer` of the five arrays at `(10000 t + p, q)`: every point writes its own block of ONE function of
  the arrays as the region finds them. The ten blocks cover the array (row `r` lies in the block of point `r / 10000`),
  so after the region the output array is that function (`final1`), for any contents `V` of the buffers at the
  region's entry.
-/
import proofs.«181128_j10685878633295_1_alg».proof.Proof.Gen.KernelIdeal.Frame
import proofs.«181128_j10685878633295_1_alg».proof.Proof.Payload
import proofs.«181128_j10685878633295_1_alg».proof.Proof.Spec
import Idealize.ShloMosaic.Lib.Pipeline.Value

noncomputable section

open scoped BigOperators

namespace Cert.KernelIdeal.RegionValue
open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-block access, as a constant function. -/
theorem zero_offsets1 : (![0, 0] : Fin 2 → Nat) = fun _ => 0 := funext fun a => by fin_cases a <;> rfl

/-- The printed index maps, decided over the ten grid points: the two row-blocked inputs and the output sit at row
    block `t`, column block 0; the two weight matrices and the bias row are always at block (0, 0). -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the block of neighbourhood means at point `t` is row `10000 t + p` of the array. -/
theorem means_block1 (c : Dev nD) (t : Fin cfg1.N) (p : Fin 10000) (k : Fin 64) (r : Fin 100000)
    (hr : r.val = t.val * 10000 + p.val) :
    (iblk1 V c 0 t : Vec Ideal S10000x64 .f32) (ix2 p k) = (V c main_v47 : S100000x64.Idx → EReal) (ix2 r k) := by
  obtain ⟨e0, e1, -⟩ := index_facts1 t
  unfold iblk1
  rw [View.read_apply]
  show V c main_v47 _ = V c main_v47 _
  congr 1
  funext a
  apply Fin.ext
  match a with
  | ⟨0, _⟩ => show win1_0.index t (0 : Fin 2) * 10000 + 1 * p.val = r.val; omega
  | ⟨1, _⟩ => show win1_0.index t (1 : Fin 2) * 64 + 1 * k.val = k.val; omega

/-- Row `p` of the block of node features at point `t` is row `10000 t + p` of the array. -/
theorem feats_block1 (c : Dev nD) (t : Fin cfg1.N) (p : Fin 10000) (k : Fin 64) (r : Fin 100000)
    (hr : r.val = t.val * 10000 + p.val) :
    (iblk1 V c 1 t : Vec Ideal S10000x64 .f32) (ix2 p k) = (V c main_v24 : S100000x64.Idx → EReal) (ix2 r k) := by
  obtain ⟨-, -, e0, e1, -⟩ := index_facts1 t
  unfold iblk1
  rw [View.read_apply]
  show V c main_v24 _ = V c main_v24 _
  congr 1
  funext a
  apply Fin.ext
  match a with
  | ⟨0, _⟩ => show win1_1.index t (0 : Fin 2) * 10000 + 1 * p.val = r.val; omega
  | ⟨1, _⟩ => show win1_1.index t (1 : Fin 2) * 64 + 1 * k.val = k.val; omega

/-- The block of the first weight matrix is the whole matrix, at every point. -/
theorem wl_block1 (c : Dev nD) (t : Fin cfg1.N) :
    (iblk1 V c 2 t : Vec Ideal S64x64 .f32) = (V c main_arg5 : S64x64.Idx → EReal) := by
  obtain ⟨-, -, -, -, e0, e1, -⟩ := index_facts1 t
  funext y
  unfold iblk1
  rw [View.read_apply]
  show V c main_arg5 _ = V c main_arg5 _
  congr 1
  funext a
  apply Fin.ext
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- The block of the bias row is the whole row, at every point. -/
theorem bias_block1 (c : Dev nD) (t : Fin cfg1.N) :
    (iblk1 V c 3 t : Vec Ideal S1x64 .f32) = (V c main_v48 : S1x64.Idx → EReal) := by
  obtain ⟨-, -, -, -, -, -, e0, e1, -⟩ := index_facts1 t
  funext y
  unfold iblk1
  rw [View.read_apply]
  show V c main_v48 _ = V c main_v48 _
  congr 1
  funext a
  apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- The block of the second weight matrix is the whole matrix, at every point. -/
theorem wr_block1 (c : Dev nD) (t : Fin cfg1.N) :
    (iblk1 V c 4 t : Vec Ideal S64x64 .f32) = (V c main_arg7 : S64x64.Idx → EReal) := by
  obtain ⟨-, -, -, -, -, -, -, -, e0, e1, -⟩ := index_facts1 t
  funext y
  unfold iblk1
  rw [View.read_apply]
  show V c main_arg7 _ = V c main_arg7 _
  congr 1
  funext a
  apply Fin.ext
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- Element `(p, q)` of the output block at point `t` is element `(10000 t + p, q)` of the output array. -/
theorem out_block1 (t : Fin cfg1.N) (p : Fin 10000) (q : Fin 64) (r : Fin 100000)
    (hr : r.val = t.val * 10000 + p.val) :
    ((cfg1.win 5).blk t).view.emb (ix2 p q : S10000x64.Idx) = (ix2 r q : S100000x64.Idx) := by
  obtain ⟨-, -, -, -, -, -, -, -, -, -, e0, e1⟩ := index_facts1 t
  funext a
  apply Fin.ext
  match a with
  | ⟨0, _⟩ => show win1_5.index t (0 : Fin 2) * 10000 + 1 * p.val = r.val; omega
  | ⟨1, _⟩ => show win1_5.index t (1 : Fin 2) * 64 + 1 * q.val = q.val; omega

/-- One element of the body's result, over arbitrary blocks: when row `p` of the two row blocks is row `r` of the two
    arrays and the other three blocks are the whole weight matrices and bias row, element `(p, q)` of the payload is
    the layer at node `r`, channel `q`. -/
theorem point1 (x0 x1 : Vec Ideal S10000x64 .f32) (x2 x4 : Vec Ideal S64x64 .f32) (x3 : Vec Ideal S1x64 .f32)
    (a x : S100000x64.Idx → EReal) (Wl Wr : S64x64.Idx → EReal) (b : S1x64.Idx → EReal)
    (p : Fin 10000) (q : Fin 64) (r : Fin 100000)
    (h0 : ∀ k : Fin 64, x0 (ix2 p k) = a (ix2 r k)) (h1 : ∀ k : Fin 64, x1 (ix2 p k) = x (ix2 r k))
    (h2 : x2 = Wl) (h3 : x3 = b) (h4 : x4 = Wr) :
    Gen.k1_pay1 (F := Ideal) x0 x1 x2 x4 x3 (ix2 p q)
      = Cert.Sage.layer a x Wl (fun k => b (ix2 (0 : Fin 1) k)) Wr (ix2 r q) := by
  rw [Payload.pay1_apply, Cert.Sage.layer_apply]
  unfold Cert.Sage.layerAt
  subst h2 h3 h4
  have s0 : (∑ k : Fin 64, x0 (ix2 p k) * x2 (ix2 k q)) = ∑ k : Fin 64, a (ix2 r k) * x2 (ix2 k q) :=
    Finset.sum_congr rfl fun k _ => by rw [h0 k]
  have s1 : (∑ k : Fin 64, x1 (ix2 p k) * x4 (ix2 k q)) = ∑ k : Fin 64, x (ix2 r k) * x4 (ix2 k q) :=
    Finset.sum_congr rfl fun k _ => by rw [h1 k]
  rw [s0, s1]

/-- WHAT POINT `t` WRITES BACK is block `t` of the layer of the five arrays as the region finds them. -/
theorem flushed_eq1 (c : Dev nD) (t : Fin cfg1.N) :
    (Gen.dat1 (F := Ideal) V c).flushed 5 t = ((cfg1.win 5).blk t).view.read (Elt Ideal)
      (Cert.Sage.layer (V c main_v47) (V c main_v24) (V c main_arg5) (fun k => V c main_v48 (ix2 (0 : Fin 1) k)) (V c main_arg7)) := by
  show (cfg1.win 5).cut (grid1.coords t) ((dat1 V c).after 5 t) = _
  rw [after1_5]
  unfold out1_5
  rw [View.canon_unit_zero zero_offsets1]
  simp only [View.ld_unit_zero (S := S10000x64) zero_offsets1, View.ld_unit_zero (S := S64x64) zero_offsets1,
    View.ld_unit_zero (S := S1x64) zero_offsets1]
  funext j
  obtain ⟨p, q, rfl⟩ : ∃ (p : Fin 10000) (q : Fin 64), j = ix2 p q := ⟨j 0, j 1, eq_ix2 j⟩
  have hN : grid1.N = 10 := Gen.N_1
  have ht : t.val < 10 := hN ▸ t.isLt
  have hr : (⟨t.val * 10000 + p.val, by have := p.isLt; omega⟩ : Fin 100000).val = t.val * 10000 + p.val := rfl
  show Gen.k1_pay1 (F := Ideal) (iblk1 V c 0 t) (iblk1 V c 1 t) (iblk1 V c 2 t) (iblk1 V c 4 t) (iblk1 V c 3 t) (ix2 p q)
    = Cert.Sage.layer (V c main_v47) (V c main_v24) (V c main_arg5) (fun k => V c main_v48 (ix2 (0 : Fin 1) k)) (V c main_arg7)
        (((cfg1.win 5).blk t).view.emb (ix2 p q))
  rw [out_block1 t p q _ hr]
  exact point1 _ _ _ _ _ _ _ _ _ _ p q _ (fun k => means_block1 V c t p k _ hr) (fun k => feats_block1 V c t p k _ hr)
    (wl_block1 V c t) (bias_block1 V c t) (wr_block1 V c t)

/-- An index of the output array is in point `t`'s block iff each coordinate is in the block's range on its axis. -/
theorem mem_blk1 (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v49).slice (win1_5.rect t)).set ↔ _
  rw [View.set_slice_whole, Rect.mem_set_unit]
  exact Iff.rfl

/-- Every index of the output array lies in the block of the point its row falls in, and every point writes back. -/
theorem cover1 (i : S100000x64.Idx) :
    ∃ t : Fin cfg1.N, (cfg1.win 5).flush t = true ∧ i ∈ ((cfg1.win 5).blk t).view.set := by
  have hN : grid1.N = 10 := Gen.N_1
  have hi0 : (i 0).val < 100000 := (i 0).isLt
  have hi1 : (i 1).val < 64 := (i 1).isLt
  have hlt : (i 0).val / 10000 < grid1.N := by rw [hN]; omega
  refine ⟨⟨(i 0).val / 10000, hlt⟩, Gen.flush1_5 _, ?_⟩
  obtain ⟨-, -, -, -, -, -, -, -, -, -, e0, e1⟩ := index_facts1 ⟨(i 0).val / 10000, hlt⟩
  have e0' : win1_5.index ⟨(i 0).val / 10000, hlt⟩ (0 : Fin 2) = (i 0).val / 10000 := e0
  rw [mem_blk1]
  intro a
  match a with
  | ⟨0, _⟩ => show win1_5.index ⟨(i 0).val / 10000, hlt⟩ (0 : Fin 2) * 10000 ≤ (i 0).val ∧ (i 0).val < win1_5.index ⟨(i 0).val / 10000, hlt⟩ (0 : Fin 2) * 10000 + 10000; omega
  | ⟨1, _⟩ => show win1_5.index ⟨(i 0).val / 10000, hlt⟩ (1 : Fin 2) * 64 ≤ (i 1).val ∧ (i 1).val < win1_5.index ⟨(i 0).val / 10000, hlt⟩ (1 : Fin 2) * 64 + 64; omega

/-- THE OUTPUT ARRAY after the region: the layer of the five arrays as the region finds them. -/
theorem final1 (c : Dev nD) :
    (Gen.dat1 (F := Ideal) V c).arrAt 5 cfg1.N
      = Cert.Sage.layer (V c main_v47) (V c main_v24) (V c main_arg5) (fun k => V c main_v48 (ix2 (0 : Fin 1) k)) (V c main_arg7) :=
  (Gen.dat1 (F := Ideal) V c).arrAt_eq_of_cover 5
    (Cert.Sage.layer (V c main_v47) (V c main_v24) (V c main_arg5) (fun k => V c main_v48 (ix2 (0 : Fin 1) k)) (V c main_arg7))
    (fun t _ => flushed_eq1 V c t) cover1

end Cert.KernelIdeal.RegionValue

end
-- ==== Proof.Chain.lean ====
/-
  The kernel program's result as a function of its arguments.

  The buffer contents at each boundary between the program's segments are followed from the launch memory: each stretch of
  host operations is read back as a function of the buffers it starts from, each region leaves in its result array the
  layer of the arrays it found on entry, and every other buffer is carried along unchanged. At the end the result buffer
  holds the head of the second layer's output, the second layer taken on the first layer's output.
-/
import proofs.«181128_j10685878633295_1_alg».proof.Proof.RunNamed
import proofs.«181128_j10685878633295_1_alg».proof.Proof.Stretches
import proofs.«181128_j10685878633295_1_alg».proof.Proof.Spec
import proofs.«181128_j10685878633295_1_alg».proof.Proof.Region0
import proofs.«181128_j10685878633295_1_alg».proof.Proof.Region1
import Idealize.ShloMosaic.Lib.Pipeline.Value
import Idealize.ShloMosaic.Lib.ValueIdx

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- An argument array as launched, on core `c`. -/
abbrev arg (c : Dev nD) (b : Ref sig .tc) : Buf (Elt Ideal) ((c : Thread nD τ).loc b) := m ((c : Thread nD τ).loc b)

/-- A 64-vector viewed as a 1 × 64 row reads, at column `k` of its one row, the vector's entry `k`. -/
theorem row_apply (b : (⟨S64, .f32⟩ : BufTy).Contents (Elt Ideal)) (k : Fin 64) :
    shapeCast S1x64 b shapeCasts_S64_S1x64 (ix2 (0 : Fin 1) k) = b (ix1 k) :=
  shapeCast_apply b shapeCasts_S64_S1x64 (ix2 (0 : Fin 1) k) (ix1 k) (by
    rw [Shape.rowMajor_val_one, Shape.rowMajor_val_two]; show k.val = 0 * 64 + k.val; omega)

/-- The first layer's output: the layer of the neighbourhood means of the input features, the input features, and the
    first layer's weights and bias. -/
def hidden (c : Dev nD) : Cert.Sage.Nodes.Idx → EReal :=
  Cert.Sage.layer (Stretches.agg (arg m c main_arg0) (arg m c main_arg1)) (arg m c main_arg0) (arg m c main_arg2)
    (fun k => arg m c main_arg3 (ix1 k)) (arg m c main_arg4)

/-- The second layer's output: the same layer on the first layer's output, with the second layer's weights and bias. -/
def hidden2 (c : Dev nD) : Cert.Sage.Nodes.Idx → EReal :=
  Cert.Sage.layer (Stretches.agg (hidden m c) (arg m c main_arg1)) (hidden m c) (arg m c main_arg5)
    (fun k => arg m c main_arg6 (ix1 k)) (arg m c main_arg7)

/-! ## At the first region's entry -/

theorem W1_v22 (c : Dev nD) : W1 m ρ c (Proc.devRef .tc main_v22) = Stretches.agg (arg m c main_arg0) (arg m c main_arg1) :=
  Stretches.first_agg (W0 m ρ c)
theorem W1_v23 (c : Dev nD) : W1 m ρ c (Proc.devRef .tc main_v23) = shapeCast S1x64 (arg m c main_arg3) shapeCasts_S64_S1x64 :=
  Stretches.first_bias (W0 m ρ c)
theorem W1_arg0 (c : Dev nD) : W1 m ρ c (Proc.devRef .tc main_arg0) = arg m c main_arg0 := Stretches.first_arg0 (W0 m ρ c)
theorem W1_arg1 (c : Dev nD) : W1 m ρ c (Proc.devRef .tc main_arg1) = arg m c main_arg1 := Stretches.first_arg1 (W0 m ρ c)
theorem W1_arg2 (c : Dev nD) : W1 m ρ c (Proc.devRef .tc main_arg2) = arg m c main_arg2 := Stretches.first_arg2 (W0 m ρ c)
theorem W1_arg4 (c : Dev nD) : W1 m ρ c (Proc.devRef .tc main_arg4) = arg m c main_arg4 := Stretches.first_arg4 (W0 m ρ c)
theorem W1_arg5 (c : Dev nD) : W1 m ρ c (Proc.devRef .tc main_arg5) = arg m c main_arg5 := Stretches.first_arg5 (W0 m ρ c)
theorem W1_arg6 (c : Dev nD) : W1 m ρ c (Proc.devRef .tc main_arg6) = arg m c main_arg6 := Stretches.first_arg6 (W0 m ρ c)
theorem W1_arg7 (c : Dev nD) : W1 m ρ c (Proc.devRef .tc main_arg7) = arg m c main_arg7 := Stretches.first_arg7 (W0 m ρ c)
theorem W1_arg8 (c : Dev nD) : W1 m ρ c (Proc.devRef .tc main_arg8) = arg m c main_arg8 := Stretches.first_arg8 (W0 m ρ c)
theorem W1_arg9 (c : Dev nD) : W1 m ρ c (Proc.devRef .tc main_arg9) = arg m c main_arg9 := Stretches.first_arg9 (W0 m ρ c)

/-! ## At the first region's exit -/

/-- The first region leaves the first layer's output in its result array. -/
theorem W2_v24 (c : Dev nD) : W2 m ρ c (Proc.devRef .tc main_v24) = hidden m c :=
  (W2_arr m ρ c 5).trans ((RegionValue.final0 (V1 m ρ) c).trans (by
    show Cert.Sage.layer (W1 m ρ c (Proc.devRef .tc main_v22)) (W1 m ρ c (Proc.devRef .tc main_arg0)) (W1 m ρ c (Proc.devRef .tc main_arg2))
      (fun k => W1 m ρ c (Proc.devRef .tc main_v23) (ix2 (0 : Fin 1) k)) (W1 m ρ c (Proc.devRef .tc main_arg4)) = _
    rw [W1_v22, W1_arg0, W1_arg2, W1_v23, W1_arg4]
    unfold hidden
    congr 1
    funext k
    exact row_apply _ k))
theorem W2_arg1 (c : Dev nD) : W2 m ρ c (Proc.devRef .tc main_arg1) = arg m c main_arg1 := (W2_of_ne m ρ c main_arg1 (by decide)).trans (W1_arg1 m ρ c)
theorem W2_arg5 (c : Dev nD) : W2 m ρ c (Proc.devRef .tc main_arg5) = arg m c main_arg5 := (W2_of_ne m ρ c main_arg5 (by decide)).trans (W1_arg5 m ρ c)
theorem W2_arg6 (c : Dev nD) : W2 m ρ c (Proc.devRef .tc main_arg6) = arg m c main_arg6 := (W2_of_ne m ρ c main_arg6 (by decide)).trans (W1_arg6 m ρ c)
theorem W2_arg7 (c : Dev nD) : W2 m ρ c (Proc.devRef .tc main_arg7) = arg m c main_arg7 := (W2_of_ne m ρ c main_arg7 (by decide)).trans (W1_arg7 m ρ c)
theorem W2_arg8 (c : Dev nD) : W2 m ρ c (Proc.devRef .tc main_arg8) = arg m c main_arg8 := (W2_of_ne m ρ c main_arg8 (by decide)).trans (W1_arg8 m ρ c)
theorem W2_arg9 (c : Dev nD) : W2 m ρ c (Proc.devRef .tc main_arg9) = arg m c main_arg9 := (W2_of_ne m ρ c main_arg9 (by decide)).trans (W1_arg9 m ρ c)

/-! ## At the second region's entry -/

theorem W3_v47 (c : Dev nD) : W3 m ρ c (Proc.devRef .tc main_v47) = Stretches.agg (hidden m c) (arg m c main_arg1) :=
  (Stretches.second_agg (W2 m ρ c)).trans (by rw [W2_v24, W2_arg1])
theorem W3_v48 (c : Dev nD) : W3 m ρ c (Proc.devRef .tc main_v48) = shapeCast S1x64 (arg m c main_arg6) shapeCasts_S64_S1x64 :=
  (Stretches.second_bias (W2 m ρ c)).trans (by rw [W2_arg6])
theorem W3_v24 (c : Dev nD) : W3 m ρ c (Proc.devRef .tc main_v24) = hidden m c := (Stretches.second_v24 (W2 m ρ c)).trans (W2_v24 m ρ c)
theorem W3_arg5 (c : Dev nD) : W3 m ρ c (Proc.devRef .tc main_arg5) = arg m c main_arg5 := (Stretches.second_arg5 (W2 m ρ c)).trans (W2_arg5 m ρ c)
theorem W3_arg7 (c : Dev nD) : W3 m ρ c (Proc.devRef .tc main_arg7) = arg m c main_arg7 := (Stretches.second_arg7 (W2 m ρ c)).trans (W2_arg7 m ρ c)
theorem W3_arg8 (c : Dev nD) : W3 m ρ c (Proc.devRef .tc main_arg8) = arg m c main_arg8 := (Stretches.second_arg8 (W2 m ρ c)).trans (W2_arg8 m ρ c)
theorem W3_arg9 (c : Dev nD) : W3 m ρ c (Proc.devRef .tc main_arg9) = arg m c main_arg9 := (Stretches.second_arg9 (W2 m ρ c)).trans (W2_arg9 m ρ c)

/-! ## At the second region's exit -/

/-- The second region leaves the second layer's output in its result array. -/
theorem W4_v49 (c : Dev nD) : W4 m ρ c (Proc.devRef .tc main_v49) = hidden2 m c :=
  (W4_arr m ρ c 5).trans ((RegionValue.final1 (V3 m ρ) c).trans (by
    show Cert.Sage.layer (W3 m ρ c (Proc.devRef .tc main_v47)) (W3 m ρ c (Proc.devRef .tc main_v24)) (W3 m ρ c (Proc.devRef .tc main_arg5))
      (fun k => W3 m ρ c (Proc.devRef .tc main_v48) (ix2 (0 : Fin 1) k)) (W3 m ρ c (Proc.devRef .tc main_arg7)) = _
    rw [W3_v47, W3_v24, W3_arg5, W3_v48, W3_arg7]
    unfold hidden2
    congr 1
    funext k
    exact row_apply _ k))
theorem W4_arg8 (c : Dev nD) : W4 m ρ c (Proc.devRef .tc main_arg8) = arg m c main_arg8 := (W4_of_ne m ρ c main_arg8 (by decide)).trans (W3_arg8 m ρ c)
theorem W4_arg9 (c : Dev nD) : W4 m ρ c (Proc.devRef .tc main_arg9) = arg m c main_arg9 := (W4_of_ne m ρ c main_arg9 (by decide)).trans (W3_arg9 m ρ c)

/-! ## The result -/

/-- The result buffer ends holding the head of the second layer's output. -/
theorem W5_v54 (c : Dev nD) : W5 m ρ c (Proc.devRef .tc main_v54)
    = Stretches.head (hidden2 m c) (arg m c main_arg8) (arg m c main_arg9) :=
  (Stretches.last_head (W4 m ρ c)).trans (by rw [W4_v49, W4_arg8, W4_arg9])

end Cert.KernelIdeal.Chain

end
-- ==== Proof.RefLayer.lean ====
/-
  The reference program's result, cut into its three kinds of step.

  The reference computes, twice over, a neighbourhood mean followed by one layer, and then a linear head:

      result = head ( layer ( mean (layer (mean x)) , layer (mean x) ) ).

  The mean (a gather along the edges' sources, a scatter-add at their targets, a division by the clamped in-degree)
  and the head are kept as the program's own terms and never opened. The layer is read index by index and is the
  shared specification's layer: the program adds the bias between the two matrix products, the specification after
  them, and addition on the extended reals is commutative and associative, infinities included.
-/
import proofs.«181128_j10685878633295_1_alg».proof.Proof.Gen.ReferenceIdeal.Read
import proofs.«181128_j10685878633295_1_alg».proof.Proof.Spec

noncomputable section

open scoped BigOperators

namespace Cert.ReferenceIdeal.RefValue

open Cert.ReferenceIdeal Cert.ReferenceIdeal.Gen Idealize.ShloMosaic Idealize.ShloMosaic.TcCoe Idealize.ShloMosaic.ValueIdx Idealize.SL.Sem

/-- The neighbourhood mean of `feat` along the edges `e`: row 0 of `e` holds the sources (a negative index wraps round
    by 100000), row 1 the targets; the sources' feature rows are summed at their targets and divided by the number of
    incoming edges, at least 1. -/
def agg (feat : FVec Ideal S100000x64 .f32) (e : IVec S2x1600000 32) : FVec Ideal S100000x64 .f32 :=
  Host.divf (F := Ideal) (Host.scatterAdd (F := Ideal) scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (Host.gather gather_S100000x64_S1600000x1_S1600000x64_1_0_n_n_0_1_164 feat (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))))) (broadcastInDim S100000x64 ![0, 1] bcast_S100000x1_S100000x64_0_1 (broadcastInDim S100000x1 ![0] bcast_S100000_S100000x1_0 (maximumf (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (broadcastInDim S1600000 ![] bcast_S_S1600000 (constant (F := Ideal) S_ .f32 0x3F800000#32))) (broadcastInDim S100000 ![] bcast_S_S100000 (constant (F := Ideal) S_ .f32 0x3F800000#32)))))

/-- One layer as the reference computes it: `max ((a · Wl + b) + x · Wr, 0)`, the bias broadcast along the rows. -/
def layerR (a x : FVec Ideal S100000x64 .f32) (Wl : FVec Ideal S64x64 .f32) (b : FVec Ideal S64 .f32) (Wr : FVec Ideal S64x64 .f32) : FVec Ideal S100000x64 .f32 :=
  maximumf (addf (addf (Host.dotGeneral (F := Ideal) dot_S100000x64_S64x64_S100000x64_1_0_0_1_n_n none a Wl) (broadcastInDim S100000x64 ![0, 1] bcast_S1x64_S100000x64_0_1 (broadcastInDim S1x64 ![1] bcast_S64_S1x64_1 b))) (Host.dotGeneral (F := Ideal) dot_S100000x64_S64x64_S100000x64_1_0_0_1_n_n none x Wr)) (broadcastInDim S100000x64 ![] bcast_S_S100000x64 (constant (F := Ideal) S_ .f32 0x00000000#32))

/-- The linear head: `h · Wc + bc`, one number per node. -/
def head (h : FVec Ideal S100000x64 .f32) (Wc : FVec Ideal S64x1 .f32) (bc : FVec Ideal S1 .f32) : FVec Ideal S100000 .f32 :=
  shapeCast _ (addf (Host.dotGeneral (F := Ideal) dot_S100000x64_S64x1_S100000x1_1_0_0_1_n_n none h Wc) (broadcastInDim S100000x1 ![0, 1] bcast_S1x1_S100000x1_0_1 (broadcastInDim S1x1 ![1] bcast_S1_S1x1_1 bc))) shapeCasts_S100000x1_S100000

set_option maxRecDepth 8192 in
/-- the reference's result is head ∘ layer ∘ agg ∘ layer ∘ agg of its arguments -/
theorem res_eq (m : (ℓ : Loc nD τ sig) → Buf (Elt Ideal) ℓ) (c : Dev nD) :
    Value.res_main_v64 (F := Ideal) m c
      = head (layerR (agg (layerR (agg (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4))) (m ((c.tc : Thread nD τ).loc main_arg1)))
                       (layerR (agg (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)))
                       (m ((c.tc : Thread nD τ).loc main_arg5)) (m ((c.tc : Thread nD τ).loc main_arg6)) (m ((c.tc : Thread nD τ).loc main_arg7)))
               (m ((c.tc : Thread nD τ).loc main_arg8)) (m ((c.tc : Thread nD τ).loc main_arg9)) := by
  unfold Value.res_main_v64 agg layerR head; rfl

/-- a reference layer IS the shared specification's layer: the two matrix products read as sums over the 64 contracted
    channels, the bias broadcasts read at an index, and (u + b) + v = (u + v) + b on the extended reals
    (commutativity and associativity only, no finiteness) -/
theorem layerR_eq_layer (a x : FVec Ideal S100000x64 .f32) (Wl : FVec Ideal S64x64 .f32) (b : FVec Ideal S64 .f32) (Wr : FVec Ideal S64x64 .f32) :
    layerR a x Wl b Wr = Cert.Sage.layer a x Wl (fun k => b (ix1 k)) Wr := by
  funext i
  obtain ⟨r, q, rfl⟩ : ∃ (r : Fin 100000) (q : Fin 64), i = ix2 r q := ⟨i 0, i 1, eq_ix2 i⟩
  -- the layer's element at (r, q), each operation named as the reference's own reading of it
  show FloatOps.maximumf (F := Ideal) (φ := .f32) (FloatOps.addf (F := Ideal) (φ := .f32) (FloatOps.addf (F := Ideal) (φ := .f32) (Read.val_main_v27 (F := Ideal) a Wl (ix2 r q)) (Read.val_main_v25 (F := Ideal) b (ix2 r q))) (Read.val_main_v27 (F := Ideal) x Wr (ix2 r q))) (Read.val_main_call0_v0 (F := Ideal) (ix2 r q)) = _
  rw [Read.val_main_v27_apply, Read.val_main_v27_apply, Read.val_main_v25_apply, Read.val_main_v24_apply, Read.val_main_call0_v0_apply, Read.val_main_call0_cst_apply]
  -- the contracted operands' indices and the bias's index, in coordinates
  have hl : ∀ k : Fin 64, Read.lidx_main_v27 (ix2 r q) k = ix2 r k := fun k =>
    funext fun d => Fin.ext (by match d with | ⟨0, _⟩ => rfl | ⟨1, _⟩ => rfl)
  have hr : ∀ k : Fin 64, Read.ridx_main_v27 (ix2 r q) k = ix2 k q := fun k =>
    funext fun d => Fin.ext (by match d with | ⟨0, _⟩ => rfl | ⟨1, _⟩ => rfl)
  have hb : Read.idx_main_v24 (Read.idx_main_v25 (ix2 r q)) = ix1 q :=
    funext fun d => Fin.ext (by match d with | ⟨0, _⟩ => rfl)
  simp only [hl, hr, hb, Ideal.addf_def, Ideal.maximumf_def, Ideal.ofBits_def]
  rw [Cert.Sage.layer_apply]
  unfold Cert.Sage.layerAt
  rw [add_right_comm]

end Cert.ReferenceIdeal.RefValue

end
-- ==== Proof.Bridge.lean ====
/-
  The two programs share their host operations.

  The neighbourhood mean before each layer and the linear head after the second are the same operations, in the same order
  and with the same literals, in the kernel program and in the reference; each program prints them over its own copy of the
  shapes and dimension records. So the kernel program's `agg` and `head` and the reference's are one function each: the two
  spellings unfold to the same term.
-/
import proofs.«181128_j10685878633295_1_alg».proof.Proof.Stretches
import proofs.«181128_j10685878633295_1_alg».proof.Proof.RefLayer

set_option maxRecDepth 16384

noncomputable section

namespace Cert.Bridge

open Idealize.ShloMosaic

/-- The kernel program's neighbourhood mean is the reference's. -/
theorem agg_eq (feat : FVec Ideal Cert.KernelIdeal.S100000x64 .f32) (e : IVec Cert.KernelIdeal.S2x1600000 32) :
    Cert.KernelIdeal.Stretches.agg feat e = Cert.ReferenceIdeal.RefValue.agg feat e := rfl

/-- The kernel program's linear head is the reference's. -/
theorem head_eq (h : FVec Ideal Cert.KernelIdeal.S100000x64 .f32) (Wc : FVec Ideal Cert.KernelIdeal.S64x1 .f32)
    (bc : FVec Ideal Cert.KernelIdeal.S1 .f32) :
    Cert.KernelIdeal.Stretches.head h Wc bc = Cert.ReferenceIdeal.RefValue.head h Wc bc := rfl

end Cert.Bridge

end
-- ==== Proof.lean ====
/-
  A two-layer graph network with mean aggregation and a linear head, 100000 nodes, 1600000 edges, 64 channels: the kernel
  program against its reference, on the extended reals.

  Both programs compute, twice, the mean of every node's in-neighbours' features by the same host operations (gather the
  source rows of the edge list, add them into the destination rows, divide by the in-degree or by one), then a layer

      max ( mean · Wl + x · Wr + b , 0 )

  and at the end a linear head h · Wc + bc. The kernel program computes each layer in a pipelined region, ten blocks of
  10000 rows, as two matrix products into zero accumulators whose sum then takes the bias; the reference adds the bias to the
  first product before the second product. Read exactly, a change of float format is the identity, each matrix product is a
  sum over the 64 contracted channels, and the two orders of adding three summands agree on the extended reals, infinities
  included, because addition there is commutative and associative: no finiteness of the inputs is used.

  The kernel program's side: its run names the result buffer (RunNamed), each stretch of host operations is read back as a
  function (Stretches), each region's result array is the layer of the arrays the region found (Payload, Region0, Region1
  over the shared specification Spec), and the boundaries are chained from the launch memory to the result (Chain). The
  reference's side: its composed term is head ∘ layer ∘ mean ∘ layer ∘ mean and each of its layers is the shared layer
  (RefLayer). The two programs' means and heads are the same operations (Bridge).
-/
import proofs.«181128_j10685878633295_1_alg».proof.Defs
import proofs.«181128_j10685878633295_1_alg».proof.Proof.Gen.Kernel
import proofs.«181128_j10685878633295_1_alg».proof.Proof.Gen.Kernel.Skeleton
import proofs.«181128_j10685878633295_1_alg».proof.Proof.Gen.Kernel.Launch
import proofs.«181128_j10685878633295_1_alg».proof.Proof.Gen.Kernel.Points
import proofs.«181128_j10685878633295_1_alg».proof.Proof.Gen.Kernel.Frame
import proofs.«181128_j10685878633295_1_alg».proof.Proof.Gen.KernelIdeal
import proofs.«181128_j10685878633295_1_alg».proof.Proof.Gen.KernelIdeal.Skeleton
import proofs.«181128_j10685878633295_1_alg».proof.Proof.Gen.KernelIdeal.Launch
import proofs.«181128_j10685878633295_1_alg».proof.Proof.Gen.KernelIdeal.Points
import proofs.«181128_j10685878633295_1_alg».proof.Proof.Gen.KernelIdeal.Frame
import proofs.«181128_j10685878633295_1_alg».proof.Proof.Gen.ReferenceIdeal
import proofs.«181128_j10685878633295_1_alg».proof.Proof.Gen.Pre_finite_inputs
import proofs.«181128_j10685878633295_1_alg».proof.Proof.Gen.ReferenceIdeal.Run
import proofs.«181128_j10685878633295_1_alg».proof.Proof.Gen.ReferenceIdeal.Read
import proofs.«181128_j10685878633295_1_alg».proof.Proof.Chain
import proofs.«181128_j10685878633295_1_alg».proof.Proof.RefLayer
import proofs.«181128_j10685878633295_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The reference runs and leaves its arguments unchanged: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories that agree on the arguments both programs end with the head of the second layer's output: the kernel
    program by following its segments, the reference by reading its composed term as head ∘ layer ∘ mean ∘ layer ∘ mean and
    each of its layers as the shared layer function (its three summands added in another order). -/
theorem algebraic : Cert.algebraic_KernelIdeal_ReferenceIdeal := by
  intro m ρ m' ρ' _ hagree
  refine ⟨fun c => Cert.KernelIdeal.Stretches.head (Cert.KernelIdeal.Chain.hidden2 m c)
      (Cert.KernelIdeal.Chain.arg m c Cert.KernelIdeal.main_arg8) (Cert.KernelIdeal.Chain.arg m c Cert.KernelIdeal.main_arg9), ?_, ?_⟩
  · exact (θ_run Cert.KernelIdeal.defs _ _).mono
      (fun r h c => ⟨(h c).1.trans (Cert.KernelIdeal.Chain.W5_v54 m ρ c), (h c).2⟩)
      (Cert.KernelIdeal.RunNamed.run_named m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.RefValue.res_eq, e0, e1, e2, e3, e4, e5, e6, e7, e8, e9]
    simp only [Cert.ReferenceIdeal.RefValue.layerR_eq_layer, ← Cert.Bridge.agg_eq, ← Cert.Bridge.head_eq]
    unfold Cert.KernelIdeal.Chain.hidden2 Cert.KernelIdeal.Chain.hidden
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
